-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x256 : Shape := ⟨2, ![50000, 256]⟩
abbrev S2x800000 : Shape := ⟨2, ![2, 800000]⟩
abbrev S512x64 : Shape := ⟨2, ![512, 64]⟩
abbrev S64 : Shape := ⟨1, ![64]⟩
abbrev S256x32 : Shape := ⟨2, ![256, 32]⟩
abbrev S32 : Shape := ⟨1, ![32]⟩
abbrev S96x96 : Shape := ⟨2, ![96, 96]⟩
abbrev S96 : Shape := ⟨1, ![96]⟩
abbrev S96x64 : Shape := ⟨2, ![96, 64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_

variable [Facts]

def fn_part2 {F : FTy → Type} [FloatOps F] (main_arg8 : FVec F S96 .f32) (main_arg9 : FVec F S96x64 .f32) (main_arg10 : FVec F S64 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x64 .f32 := Host.absf main_arg9
  let main_cst_14 : FVec F S_ .f32 := constant S_ .f32 0x7F800000#32
  let main_v40 : FVec F S96x64 .f32 := broadcastInDim S96x64 ![] bcast_S_S96x64 main_cst_14
  let main_v41 : IVec S96x64 1 := cmpf .olt main_v39 main_v40
  let main_c_15 : IVec S_ 1 := constantI S_ 1 1#1
  let main_v42 : IVec S_ 1 := (fun x v => Host.reduce IntOp.andi x v reducesTo_S96x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S256x32 .f32) (main_arg6 : FVec F S32 .f32) (main_arg7 : FVec F S96x96 .f32) (main_arg8 : FVec F S96 .f32) (main_arg9 : FVec F S96x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x32 .f32 := Host.absf main_arg5
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x512 .f32) (main_arg1 : FVec F S50000x256 .f32) (main_arg2 : IVec S2x800000 32) (main_arg3 : FVec F S512x64 .f32) (main_arg4 : FVec F S64 .f32) (main_arg5 : FVec F S256x32 .f32) (main_arg6 : FVec F S32 .f32) (main_arg7 : FVec F S96x96 .f32) (main_arg8 : FVec F S96 .f32) (main_arg9 : FVec F S96x64 .f32) (main_arg10 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x512 : Shape := ⟨2, ![50000, 512]⟩
abbrev S50000x256 : Shape := ⟨2, ![50000, 256]⟩
abbrev S2x800000 : Shape := ⟨2, ![2, 800000]⟩
abbrev S512x64 : Shape := ⟨2, ![512, 64]⟩
abbrev S64 : Shape := ⟨1, ![64]⟩
abbrev S256x32 : Shape := ⟨2, ![256, 32]⟩
abbrev S32 : Shape := ⟨1, ![32]⟩
abbrev S96x96 : Shape := ⟨2, ![96, 96]⟩
abbrev S96 : Shape := ⟨1, ![96]⟩
abbrev S96x64 : Shape := ⟨2, ![96, 64]⟩
abbrev S1x800000 : Shape := ⟨2, ![1, 800000]⟩
abbrev S800000 : Shape := ⟨1, ![800000]⟩
abbrev S64x96 : Shape := ⟨2, ![64, 96]⟩
abbrev S32x96 : Shape := ⟨2, ![32, 96]⟩
abbrev S1x64 : Shape := ⟨2, ![1, 64]⟩
abbrev S1x32 : Shape := ⟨2, ![1, 32]⟩
abbrev S50000x96 : Shape := ⟨2, ![50000, 96]⟩
abbrev S5000x512 : Shape := ⟨2, ![5000, 512]⟩
abbrev S5000x256 : Shape := ⟨2, ![5000, 256]⟩
abbrev S5000x96 : Shape := ⟨2, ![5000, 96]⟩
abbrev S5000x64 : Shape := ⟨2, ![5000, 64]⟩
abbrev S5000x32 : Shape := ⟨2, ![5000, 32]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x64 : Shape := ⟨2, ![50000, 64]⟩
abbrev S850000x64 : Shape := ⟨2, ![850000, 64]⟩

abbrev nBuf : Space → Nat
  | .hbm => 134
  | .vmem => 17
  | .smem => 0
  | _ => 0

abbrev hbmTy0_0 (i : Nat) : BufTy := match i % 128 with
  | 0 => ⟨S50000x512, .f32⟩
  | 1 => ⟨S50000x256, .f32⟩
  | 2 => ⟨S2x800000, .i32⟩
  | 3 => ⟨S512x64, .f32⟩
  | 4 => ⟨S64, .f32⟩
  | 5 => ⟨S256x32, .f32⟩
  | 6 => ⟨S32, .f32⟩
  | 7 => ⟨S96x96, .f32⟩
  | 8 => ⟨S96, .f32⟩
  | 9 => ⟨S96x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S64x96, .f32⟩
  | 16 => ⟨S32x96, .f32⟩
  | 17 => ⟨S1x64, .f32⟩
  | 18 => ⟨S1x32, .f32⟩
  | 19 => ⟨S50000x96, .f32⟩
  | 20 => ⟨S50000, .i32⟩
  | 21 => ⟨S850000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x96, .f32⟩
  | 65 => ⟨S850000x1, .f32⟩
  | 66 => ⟨S850000x96, .f32⟩
  | 67 => ⟨S850000x96, .f32⟩
  | 68 => ⟨S_, .f32⟩
  | 69 => ⟨S50000x96, .f32⟩
  | 70 => ⟨S850000x1, .i32⟩
  | 71 => ⟨S50000x96, .f32⟩
  | 72 => ⟨S1x96, .f32⟩
  | 73 => ⟨S50000x96, .f32⟩
  | 74 => ⟨S50000x96, .f32⟩
  | 75 => ⟨S_, .f32⟩
  | 76 => ⟨S50000x96, .f32⟩
  | 77 => ⟨S50000x96, .f32⟩
  | 78 => ⟨S50000x64, .f32⟩
  | 79 => ⟨S50000, .i32⟩
  | 80 => ⟨S850000, .i32⟩
  | 81 => ⟨S850000, .i32⟩
  | 82 => ⟨S_, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x64, .f32⟩
  | 124 => ⟨S850000x1, .f32⟩
  | 125 => ⟨S850000x64, .f32⟩
  | 126 => ⟨S850000x64, .f32⟩
  | 127 => ⟨S_, .f32⟩
  | _ => ⟨S50000x512, .f32⟩

abbrev hbmTy0_1 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .f32⟩
  | 5 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S5000x256, .f32⟩
  | .local _ .vmem, ⟨3, _⟩ => ⟨S5000x256, .f32⟩
  | .local _ .vmem, ⟨4, _⟩ => ⟨S512x64, .f32⟩
  | .local _ .vmem, ⟨5, _⟩ => ⟨S1x64, .f32⟩
  | .local _ .vmem, ⟨6, _⟩ => ⟨S256x32, .f32⟩
  | .local _ .vmem, ⟨7, _⟩ => ⟨S1x32, .f32⟩
  | .local _ .vmem, ⟨8, _⟩ => ⟨S64x96, .f32⟩
  | .local _ .vmem, ⟨9, _⟩ => ⟨S32x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S96x64, .f32⟩
  | .local _ .vmem, ⟨15, _⟩ => ⟨S5000x64, .f32⟩
  | .local _ .vmem, ⟨16, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S96x96_S64x96_0_0 : S96x96.Slices ![0, 0] S64x96
  slices_S96x96_S32x96_64_0 : S96x96.Slices ![64, 0] S32x96
  shapeCasts_S64_S1x64 : S64.ShapeCasts S1x64
  shapeCasts_S32_S1x32 : S32.ShapeCasts S1x32
  inb_S5000x512_S5000x512_0_0 : ∀ a, (![0, 0] : Fin 2 → Nat) a + S5000x512.size a ≤ S5000x512.size a
  h_S5000x512 : 0 < S5000x512.numel
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x256_S5000x256_0_0 : ∀ a, (![0, 0] : Fin 2 → Nat) a + S5000x256.size a ≤ S5000x256.size a
  h_S5000x256 : 0 < S5000x256.numel
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S5000x96_S5000x96_0_0 : ∀ a, (![0, 0] : Fin 2 → Nat) a + S5000x96.size a ≤ S5000x96.size a
  h_S5000x96 : 0 < S5000x96.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x64_S96x64_0_0 : ∀ a, (![0, 0] : Fin 2 → Nat) a + S96x64.size a ≤ S96x64.size a
  h_S96x64 : 0 < S96x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x512_S512x64_S5000x64_1_0_0_1_n_n_wf : DotDims.WF S5000x512 S512x64 S5000x64 [1] [0] [0] [1] [] []
  dot_S5000x256_S256x32_S5000x32_1_0_0_1_n_n_wf : DotDims.WF S5000x256 S256x32 S5000x32 [1] [0] [0] [1] [] []
  dot_S5000x64_S64x96_S5000x96_1_0_0_1_n_n_wf : DotDims.WF S5000x64 S64x96 S5000x96 [1] [0] [0] [1] [] []
  dot_S5000x32_S32x96_S5000x96_1_0_0_1_n_n_wf : DotDims.WF S5000x32 S32x96 S5000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x64_S5000x64_1_0_0_1_n_n_wf : DotDims.WF S5000x96 S96x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x96.size a ≤ S64x96.size a
  hwx0_6 : ∀ i : grid0.Coords, EltTy.bits .f32 = 32 ∨ (Rect.block (s := S64x96) S64x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x96.size a ≤ S32x96.size a
  hwx0_7 : ∀ i : grid0.Coords, EltTy.bits .f32 = 32 ∨ (Rect.block (s := S32x96) S32x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x96.size a ≤ S50000x96.size a
  hwx0_8 : ∀ i : grid0.Coords, EltTy.bits .f32 = 32 ∨ (Rect.block (s := S50000x96) S5000x96.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x64.size a ≤ S96x64.size a
  hwx1_1 : ∀ i : grid1.Coords, EltTy.bits .f32 = 32 ∨ (Rect.block (s := S96x64) S96x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def dot_S5000x32_S32x96_S5000x96_1_0_0_1_n_n : DotDims S5000x32 S32x96 S5000x96 where
  lhsContracting := [1]
  rhsContracting := [0]
  lhsNonContracting := [0]
  rhsNonContracting := [1]
  lhsBatch := []
  rhsBatch := []
  wf := dot_S5000x32_S32x96_S5000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S32x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S5000x96.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v51) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S96x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S50000x256 : Shape := ⟨2, ![50000, 256]⟩
abbrev S2x800000 : Shape := ⟨2, ![2, 800000]⟩
abbrev S512x64 : Shape := ⟨2, ![512, 64]⟩
abbrev S64 : Shape := ⟨1, ![64]⟩
abbrev S256x32 : Shape := ⟨2, ![256, 32]⟩
abbrev S32 : Shape := ⟨1, ![32]⟩
abbrev S96x96 : Shape := ⟨2, ![96, 96]⟩
abbrev S96 : Shape := ⟨1, ![96]⟩
abbrev S96x64 : Shape := ⟨2, ![96, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S50000x32 : Shape := ⟨2, ![50000, 32]⟩
abbrev S1x32 : Shape := ⟨2, ![1, 32]⟩
abbrev S50000x96 : Shape := ⟨2, ![50000, 96]⟩
abbrev S50000 : Shape := ⟨1, ![50000]⟩
abbrev S850000 : Shape := ⟨1, ![850000]⟩
abbrev S850000x1 : Shape := ⟨2, ![850000, 1]⟩
abbrev S850000x96 : Shape := ⟨2, ![850000, 96]⟩
abbrev S1x96 : Shape := ⟨2, ![1, 96]⟩
abbrev S850000x64 : Shape := ⟨2, ![850000, 64]⟩

abbrev nBuf : Space → Nat
  | .hbm => 145
  | .vmem => 0
  | .smem => 0
  | _ => 0

abbrev hbmTy0_0 (i : Nat) : BufTy := match i % 128 with
  | 0 => ⟨S50000x512, .f32⟩
  | 1 => ⟨S50000x256, .f32⟩
  | 2 => ⟨S2x800000, .i32⟩
  | 3 => ⟨S512x64, .f32⟩
  | 4 => ⟨S64, .f32⟩
  | 5 => ⟨S256x32, .f32⟩
  | 6 => ⟨S32, .f32⟩
  | 7 => ⟨S96x96, .f32⟩
  | 8 => ⟨S96, .f32⟩
  | 9 => ⟨S96x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S50000x32, .f32⟩
  | 23 => ⟨S1x32, .f32⟩
  | 24 => ⟨S50000x32, .f32⟩
  | 25 => ⟨S50000x32, .f32⟩
  | 26 => ⟨S_, .f32⟩
  | 27 => ⟨S50000x32, .f32⟩
  | 28 => ⟨S50000x32, .f32⟩
  | 29 => ⟨S50000x96, .f32⟩
  | 30 => ⟨S50000x96, .f32⟩
  | 31 => ⟨S50000, .i32⟩
  | 32 => ⟨S850000, .i32⟩
  | 33 => ⟨S850000, .i32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x96, .f32⟩
  | 76 => ⟨S850000x1, .f32⟩
  | 77 => ⟨S850000x96, .f32⟩
  | 78 => ⟨S850000x96, .f32⟩
  | 79 => ⟨S_, .f32⟩
  | 80 => ⟨S50000x96, .f32⟩
  | 81 => ⟨S850000x1, .i32⟩
  | 82 => ⟨S50000x96, .f32⟩
  | 83 => ⟨S1x96, .f32⟩
  | 84 => ⟨S50000x96, .f32⟩
  | 85 => ⟨S50000x96, .f32⟩
  | 86 => ⟨S_, .f32⟩
  | 87 => ⟨S50000x96, .f32⟩
  | 88 => ⟨S50000x96, .f32⟩
  | 89 => ⟨S50000x64, .f32⟩
  | 90 => ⟨S50000, .i32⟩
  | 91 => ⟨S850000, .i32⟩
  | 92 => ⟨S850000, .i32⟩
  | 93 => ⟨S_, .f32⟩
  | 94 => ⟨S850000, .f32⟩
  | 95 => ⟨S_, .f32⟩
  | 96 => ⟨S50000, .f32⟩
  | 97 => ⟨S850000x1, .i32⟩
  | 98 => ⟨S50000, .f32⟩
  | 99 => ⟨S_, .f32⟩
  | 100 => ⟨S50000, .f32⟩
  | 101 => ⟨S50000, .i1⟩
  | 102 => ⟨S50000, .f32⟩
  | 103 => ⟨S_, .f32⟩
  | 104 => ⟨S_, .f32⟩
  | 105 => ⟨S50000, .f32⟩
  | 106 => ⟨S50000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S_, .i32⟩
  | 127 => ⟨S850000, .i32⟩
  | _ => ⟨S50000x512, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x64, .f32⟩
  | 7 => ⟨S850000x1, .f32⟩
  | 8 => ⟨S850000x64, .f32⟩
  | 9 => ⟨S850000x64, .f32⟩
  | 10 => ⟨S_, .f32⟩
  | 11 => ⟨S50000x64, .f32⟩
  | 12 => ⟨S850000x1, .i32⟩
  | 13 => ⟨S50000x64, .f32⟩
  | 14 => ⟨S1x64, .f32⟩
  | 15 => ⟨S50000x64, .f32⟩
  | 16 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_v26 : Ref sig .tc := ⟨.hbm, 47, rfl⟩
abbrev main_c : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call3_cst : Ref sig .tc := ⟨.hbm, 86, rfl⟩
abbrev main_call3_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_call4_v0 : Ref sig .tc := ⟨.hbm, 104, rfl⟩
abbrev main_call4_v1 : Ref sig .tc := ⟨.hbm, 105, rfl⟩
abbrev main_v70 : Ref sig .tc := ⟨.hbm, 106, rfl⟩
abbrev main_c_13 : Ref sig .tc := ⟨.hbm, 107, rfl⟩
abbrev main_v71 : Ref sig .tc := ⟨.hbm, 108, rfl⟩
abbrev main_v72 : Ref sig .tc := ⟨.hbm, 109, rfl⟩
abbrev main_c_14 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_c_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_17 : Ref sig .tc := ⟨.hbm, 126, rfl⟩
abbrev main_v86 : Ref sig .tc := ⟨.hbm, 127, rfl⟩
abbrev main_v87 : Ref sig .tc := ⟨.hbm, 128, rfl⟩
abbrev main_c_18 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  concatenates_S50000x64_S50000x32_S50000x96_d1 : Shape.Concatenates [S50000x64, S50000x32] S50000x96 1
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x64_0_1 : S850000x1.BroadcastsInDim S850000x64 (![0, 1] : Fin 2 → Fin S850000x64.rank)
  dot_S50000x512_S512x64_S50000x64_1_0_0_1_n_n_wf : DotDims.WF S50000x512 S512x64 S50000x64 [1] [0] [0] [1] [] []
  dot_S50000x256_S256x32_S50000x32_1_0_0_1_n_n_wf : DotDims.WF S50000x256 S256x32 S50000x32 [1] [0] [0] [1] [] []
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x64_S50000x64_1_0_0_1_n_n_wf : DotDims.WF S50000x96 S96x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its RESULT named. @main is two grid regions among stretches of host operations; the
  buffers' contents at each boundary are a fold from the launch memory (the contents after a stretch are the stretch's
  operations applied in order; after a region, its output array at what the grid points' write-backs leave, everything else
  as entered). Every weakly fair execution terminates with every unscoped buffer at the last boundary's contents: so the
  result buffer ends at the last boundary's contents of that buffer, and each argument as launched.
-/
import proofs.«150896_j3822520893972_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents of it (the fold `W10` through both regions and every host stretch) and every argument array as launched:
    the final state holds every unscoped buffer at the last boundary's contents, read here at the result and at the
    arguments. -/
theorem run_value : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Hand

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.Region0Pay.lean ====
/-
  What region 0's body stores, read at an index of its 5000 × 96 block, at the ideal instance.

  The body multiplies the feature block by the feature weights, adds the bias row and clamps at zero (the 5000 × 64 block f),
  does the same for the image block (the 5000 × 32 block g), and stores f · A + g · B, where A is the first 64 rows and B the
  last 32 rows of the first layer's weight matrix. Every matrix product accumulates into a zero splat, so at an index it is the
  plain sum over the contracted axis; the bias is a one-row array broadcast over the rows.
-/
import proofs.«150896_j3822520893972_1_alg».proof.Proof.Gen.KernelIdeal.Skeleton
import proofs.«150896_j3822520893972_1_alg».proof.Proof.LibPlainDot
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! The operand indices of the contraction `dot_S5000x512_S512x64_S5000x64_1_0_0_1_n_n` at a result index and a contraction index. -/
theorem dFeat_l0 (i : S5000x64.Idx) (q : dot_S5000x512_S512x64_S5000x64_1_0_0_1_n_n.contr.Idx) : (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem dFeat_l1 (i : S5000x64.Idx) (q : dot_S5000x512_S512x64_S5000x64_1_0_0_1_n_n.contr.Idx) : (dot_S5000x512_S512x64_S5000x64_1_0_0_1_n_n.lhsIdx i q 1).val = (q ⟨0, by decide⟩).val :=
  dot_S5000x512_S512x64_S5000x64_1_0_0_1_n_n.lhsIdx_val_of_single rfl i q
theorem dFeat_r0 (i : S5000x64.Idx) (q : dot_S5000x512_S512x64_S5000x64_1_0_0_1_n_n.contr.Idx) : (dot_S5000x512_S512x64_S5000x64_1_0_0_1_n_n.rhsIdx i q 0).val = (q ⟨0, by decide⟩).val :=
  dot_S5000x512_S512x64_S5000x64_1_0_0_1_n_n.rhsIdx_val_of_single rfl i q
theorem dFeat_r1 (i : S5000x64.Idx) (q : dot_S5000x512_S512x64_S5000x64_1_0_0_1_n_n.contr.Idx) : (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-! The operand indices of the contraction `dot_S5000x256_S256x32_S5000x32_1_0_0_1_n_n` at a result index and a contraction index. -/
theorem dImg_l0 (i : S5000x32.Idx) (q : dot_S5000x256_S256x32_S5000x32_1_0_0_1_n_n.contr.Idx) : (dot_S5000x256_S256x32_S5000x32_1_0_0_1_n_n.lhsIdx i q 0).val = (i 0).val := by
  unfold DotDims.lhsIdx
  rw [dif_neg (show ¬(0 : Fin S5000x256.rank) ∈ dot_S5000x256_S256x32_S5000x32_1_0_0_1_n_n.lhsBatch by decide), dif_pos (show (0 : Fin S5000x256.rank) ∈ dot_S5000x256_S256x32_S5000x32_1_0_0_1_n_n.lhsNonContracting by decide)]
  rfl
theorem dImg_l1 (i : S5000x32.Idx) (q : dot_S5000x256_S256x32_S5000x32_1_0_0_1_n_n.contr.Idx) : (dot_S5000x256_S256x32_S5000x32_1_0_0_1_n_n.lhsIdx i q 1).val = (q ⟨0, by decide⟩).val :=
  dot_S5000x256_S256x32_S5000x32_1_0_0_1_n_n.lhsIdx_val_of_single rfl i q
theorem dImg_r0 (i : S5000x32.Idx) (q : dot_S5000x256_S256x32_S5000x32_1_0_0_1_n_n.contr.Idx) : (dot_S5000x256_S256x32_S5000x32_1_0_0_1_n_n.rhsIdx i q 0).val = (q ⟨0, by decide⟩).val :=
  dot_S5000x256_S256x32_S5000x32_1_0_0_1_n_n.rhsIdx_val_of_single rfl i q
theorem dImg_r1 (i : S5000x32.Idx) (q : dot_S5000x256_S256x32_S5000x32_1_0_0_1_n_n.contr.Idx) : (dot_S5000x256_S256x32_S5000x32_1_0_0_1_n_n.rhsIdx i q 1).val = (i 1).val := by
  unfold DotDims.rhsIdx
  rw [dif_neg (show ¬(1 : Fin S256x32.rank) ∈ dot_S5000x256_S256x32_S5000x32_1_0_0_1_n_n.rhsBatch by decide), dif_pos (show (1 : Fin S256x32.rank) ∈ dot_S5000x256_S256x32_S5000x32_1_0_0_1_n_n.rhsNonContracting by decide)]
  rfl

/-! The operand indices of the contraction `dot_S5000x64_S64x96_S5000x96_1_0_0_1_n_n` at a result index and a contraction index. -/
theorem dTop_l0 (i : S5000x96.Idx) (q : dot_S5000x64_S64x96_S5000x96_1_0_0_1_n_n.contr.Idx) : (dot_S5000x64_S64x96_S5000x96_1_0_0_1_n_n.lhsIdx i q 0).val = (i 0).val := by
  unfold DotDims.lhsIdx
  rw [dif_neg (show ¬(0 : Fin S5000x64.rank) ∈ dot_S5000x64_S64x96_S5000x96_1_0_0_1_n_n.lhsBatch by decide), dif_pos (show (0 : Fin S5000x64.rank) ∈ dot_S5000x64_S64x96_S5000x96_1_0_0_1_n_n.lhsNonContracting by decide)]
  rfl
theorem dTop_l1 (i : S5000x96.Idx) (q : dot_S5000x64_S64x96_S5000x96_1_0_0_1_n_n.contr.Idx) : (dot_S5000x64_S64x96_S5000x96_1_0_0_1_n_n.lhsIdx i q 1).val = (q ⟨0, by decide⟩).val :=
  dot_S5000x64_S64x96_S5000x96_1_0_0_1_n_n.lhsIdx_val_of_single rfl i q
theorem dTop_r0 (i : S5000x96.Idx) (q : dot_S5000x64_S64x96_S5000x96_1_0_0_1_n_n.contr.Idx) : (dot_S5000x64_S64x96_S5000x96_1_0_0_1_n_n.rhsIdx i q 0).val = (q ⟨0, by decide⟩).val :=
  dot_S5000x64_S64x96_S5000x96_1_0_0_1_n_n.rhsIdx_val_of_single rfl i q
theorem dTop_r1 (i : S5000x96.Idx) (q : dot_S5000x64_S64x96_S5000x96_1_0_0_1_n_n.contr.Idx) : (dot_S5000x64_S64x96_S5000x96_1_0_0_1_n_n.rhsIdx i q 1).val = (i 1).val := by
  unfold DotDims.rhsIdx
  rw [dif_neg (show ¬(1 : Fin S64x96.rank) ∈ dot_S5000x64_S64x96_S5000x96_1_0_0_1_n_n.rhsBatch by decide), dif_pos (show (1 : Fin S64x96.rank) ∈ dot_S5000x64_S64x96_S5000x96_1_0_0_1_n_n.rhsNonContracting by decide)]
  rfl

/-! The operand indices of the contraction `dot_S5000x32_S32x96_S5000x96_1_0_0_1_n_n` at a result index and a contraction index. -/
theorem dBot_l0 (i : S5000x96.Idx) (q : dot_S5000x32_S32x96_S5000x96_1_0_0_1_n_n.contr.Idx) : (dot_S5000x32_S32x96_S5000x96_1_0_0_1_n_n.lhsIdx i q 0).val = (i 0).val := by
  unfold DotDims.lhsIdx
  rw [dif_neg (show ¬(0 : Fin S5000x32.rank) ∈ dot_S5000x32_S32x96_S5000x96_1_0_0_1_n_n.lhsBatch by decide), dif_pos (show (0 : Fin S5000x32.rank) ∈ dot_S5000x32_S32x96_S5000x96_1_0_0_1_n_n.lhsNonContracting by decide)]
  rfl
theorem dBot_l1 (i : S5000x96.Idx) (q : dot_S5000x32_S32x96_S5000x96_1_0_0_1_n_n.contr.Idx) : (dot_S5000x32_S32x96_S5000x96_1_0_0_1_n_n.lhsIdx i q 1).val = (q ⟨0, by decide⟩).val :=
  dot_S5000x32_S32x96_S5000x96_1_0_0_1_n_n.lhsIdx_val_of_single rfl i q
theorem dBot_r0 (i : S5000x96.Idx) (q : dot_S5000x32_S32x96_S5000x96_1_0_0_1_n_n.contr.Idx) : (dot_S5000x32_S32x96_S5000x96_1_0_0_1_n_n.rhsIdx i q 0).val = (q ⟨0, by decide⟩).val :=
  dot_S5000x32_S32x96_S5000x96_1_0_0_1_n_n.rhsIdx_val_of_single rfl i q
theorem dBot_r1 (i : S5000x96.Idx) (q : dot_S5000x32_S32x96_S5000x96_1_0_0_1_n_n.contr.Idx) : (dot_S5000x32_S32x96_S5000x96_1_0_0_1_n_n.rhsIdx i q 1).val = (i 1).val := by
  unfold DotDims.rhsIdx
  rw [dif_neg (show ¬(1 : Fin S32x96.rank) ∈ dot_S5000x32_S32x96_S5000x96_1_0_0_1_n_n.rhsBatch by decide), dif_pos (show (1 : Fin S32x96.rank) ∈ dot_S5000x32_S32x96_S5000x96_1_0_0_1_n_n.rhsNonContracting by decide)]
  rfl

/-- The clamped feature encoder block at (p, k): the row's product with column k of the weights, plus the bias at k,
    clamped at the zero word. -/
theorem enc_feat_apply (v0 : FVec Ideal S5000x512 .f32) (v1 : FVec Ideal S512x64 .f32) (v3 : FVec Ideal S1x64 .f32)
    (h1 : S1x64.ShapeCasts S1x64) (h2 : S1x64.Broadcasts S5000x64) (p : Fin 5000) (k : Fin 64) :
    maximumf (addf (matmul dot_S5000x512_S512x64_S5000x64_1_0_0_1_n_n none v0 v1 (constant S5000x64 .f32 0x00000000#32))
        (broadcastTo S5000x64 (shapeCast S1x64 v3 h1) h2)) (broadcast S5000x64 (Scalar.ofBits (F := Ideal) .f32 0x00000000#32)) (ix2 p k)
      = max ((∑ j : Fin 512, v0 (ix2 p j) * v1 (ix2 j k)) + v3 (ix2 (0 : Fin 1) k)) (Ideal.ofBits .f32 0x00000000#32) := by
  rw [maximumf_apply, addf_apply, broadcast_apply,
    Cert.Lib.PlainDot.matmul_zero_apply dot_S5000x512_S512x64_S5000x64_1_0_0_1_n_n rfl rfl dFeat_l0 dFeat_l1 dFeat_r0 dFeat_r1 none v0 v1 p k,
    broadcastTo_1b_ab_apply, shapeCast_self]
  rfl

/-- The clamped image encoder block at (p, k). -/
theorem enc_img_apply (v9 : FVec Ideal S5000x256 .f32) (v10 : FVec Ideal S256x32 .f32) (v12 : FVec Ideal S1x32 .f32)
    (h1 : S1x32.ShapeCasts S1x32) (h2 : S1x32.Broadcasts S5000x32) (p : Fin 5000) (k : Fin 32) :
    maximumf (addf (matmul dot_S5000x256_S256x32_S5000x32_1_0_0_1_n_n none v9 v10 (constant S5000x32 .f32 0x00000000#32))
        (broadcastTo S5000x32 (shapeCast S1x32 v12 h1) h2)) (broadcast S5000x32 (Scalar.ofBits (F := Ideal) .f32 0x00000000#32)) (ix2 p k)
      = max ((∑ j : Fin 256, v9 (ix2 p j) * v10 (ix2 j k)) + v12 (ix2 (0 : Fin 1) k)) (Ideal.ofBits .f32 0x00000000#32) := by
  rw [maximumf_apply, addf_apply, broadcast_apply,
    Cert.Lib.PlainDot.matmul_zero_apply dot_S5000x256_S256x32_S5000x32_1_0_0_1_n_n rfl rfl dImg_l0 dImg_l1 dImg_r0 dImg_r1 none v9 v10 p k,
    broadcastTo_1b_ab_apply, shapeCast_self]
  rfl

/-- THE STORED BLOCK at (p, q): the clamped feature row times column q of the top 64 weight rows, plus the clamped image
    row times column q of the bottom 32 weight rows. -/
theorem pay_apply (v0 : Vec Ideal S5000x512 .f32) (v1 : Vec Ideal S512x64 .f32) (v3 : Vec Ideal S1x64 .f32) (v9 : Vec Ideal S5000x256 .f32)
    (v10 : Vec Ideal S256x32 .f32) (v12 : Vec Ideal S1x32 .f32) (v18 : Vec Ideal S64x96 .f32) (v21 : Vec Ideal S32x96 .f32) (p : Fin 5000) (q : Fin 96) :
    k0_pay1 v0 v1 v3 v9 v10 v12 v18 v21 (ix2 p q)
      = (∑ k : Fin 64, max ((∑ j : Fin 512, v0 (ix2 p j) * v1 (ix2 j k)) + v3 (ix2 (0 : Fin 1) k)) (Ideal.ofBits .f32 0x00000000#32) * v18 (ix2 k q))
        + (∑ k : Fin 32, max ((∑ j : Fin 256, v9 (ix2 p j) * v10 (ix2 j k)) + v12 (ix2 (0 : Fin 1) k)) (Ideal.ofBits .f32 0x00000000#32) * v21 (ix2 k q)) := by
  unfold k0_pay1
  refine (addf_apply _ _ _).trans ?_
  refine congrArg₂ (· + ·) ?_ ?_
  · refine (Cert.Lib.PlainDot.matmul_zero_apply dot_S5000x64_S64x96_S5000x96_1_0_0_1_n_n rfl rfl dTop_l0 dTop_l1 dTop_r0 dTop_r1 none _ _ p q).trans ?_
    refine Finset.sum_congr rfl fun k _ => ?_
    rw [enc_feat_apply, shapeCast_self]
  · refine (Cert.Lib.PlainDot.matmul_zero_apply dot_S5000x32_S32x96_S5000x96_1_0_0_1_n_n rfl rfl dBot_l0 dBot_l1 dBot_r0 dBot_r1 none _ _ p q).trans ?_
    refine Finset.sum_congr rfl fun k _ => ?_
    rw [enc_img_apply, shapeCast_self]

end Cert.KernelIdeal.Hand

end
-- ==== Proof.Region0Ref.lean ====
/-
  The reference's first-layer product x · W, read at an index, at the ideal instance.

  The reference clamps feature · W_feat + b_feat and img · W_img + b_img at zero, joins the two along the columns into a
  50000 × 96 array x, and multiplies by the 96 × 96 weight matrix. At (r, q) the product is the sum over the 96 columns k of
  x (r, k) · W (k, q); the first 64 columns of x are the clamped feature encoder and the last 32 the clamped image encoder, so the
  sum splits — addition of extended reals is commutative and associative, nothing else is used — into the sum over k < 64 of
  f (r, k) · W (k, q) and the sum over k < 32 of g (r, k) · W (64 + k, q).
-/
import proofs.«150896_j3822520893972_1_alg».proof.Proof.RefReadP

noncomputable section

namespace Cert.ReferenceIdeal.Hand

open Cert.ReferenceIdeal Cert.ReferenceIdeal.Gen Cert.ReferenceIdeal.ReadP Idealize.ShloMosaic Idealize.ShloMosaic.ValueIdx

/-- A sum over 96 columns is the sum over the first 64 plus the sum over the last 32. -/
theorem sum_split_96 (G : Fin 96 → EReal) :
    ∑ k : Fin 96, G k = (∑ k : Fin 64, G ⟨k.val, by omega⟩) + ∑ k : Fin 32, G ⟨64 + k.val, by omega⟩ :=
  Fin.sum_univ_add (a := 64) (b := 32) G

/-- The clamped feature encoder at (r, k): row r of the features times column k of the weights, plus the bias at k, clamped
    at the zero word. -/
theorem feat_apply (x0 : (⟨S50000x512, .f32⟩ : BufTy).Contents (Elt Ideal)) (x3 : (⟨S512x64, .f32⟩ : BufTy).Contents (Elt Ideal)) (x4 : (⟨S64, .f32⟩ : BufTy).Contents (Elt Ideal)) (r : Fin 50000) (k : Fin 64) :
    val_main_v8 (F := Ideal) x0 x3 x4 (ix2 r k)
      = max ((∑ j : Fin 512, x0 (ix2 r j) * x3 (ix2 j k)) + x4 (ix1 k)) (Ideal.ofBits .f32 0x00000000#32) := by
  have e1 : ∀ j : Fin 512, lidx_main_v4 (ix2 r k) j = ix2 r j := fun j => funext fun a => Fin.ext (by match a with | ⟨0, _⟩ => rfl | ⟨1, _⟩ => rfl)
  have e2 : ∀ j : Fin 512, ridx_main_v4 (ix2 r k) j = ix2 j k := fun j => funext fun a => Fin.ext (by match a with | ⟨0, _⟩ => rfl | ⟨1, _⟩ => rfl)
  have e3 : idx_main_v5 (idx_main_v6 (ix2 r k)) = ix1 k := funext fun a => Fin.ext (by match a with | ⟨0, _⟩ => rfl)
  rw [val_main_v8_apply, val_main_v7_apply, val_main_v4_apply, val_main_v6_apply, val_main_v5_apply, val_main_call0_v0_apply, val_main_call0_cst_apply, e3]
  simp only [e1, e2]
  rfl

/-- The clamped image encoder at (r, k). -/
theorem img_apply (x1 : (⟨S50000x256, .f32⟩ : BufTy).Contents (Elt Ideal)) (x5 : (⟨S256x32, .f32⟩ : BufTy).Contents (Elt Ideal)) (x6 : (⟨S32, .f32⟩ : BufTy).Contents (Elt Ideal)) (r : Fin 50000) (k : Fin 32) :
    val_main_v13 (F := Ideal) x1 x5 x6 (ix2 r k)
      = max ((∑ j : Fin 256, x1 (ix2 r j) * x5 (ix2 j k)) + x6 (ix1 k)) (Ideal.ofBits .f32 0x00000000#32) := by
  have e1 : ∀ j : Fin 256, lidx_main_v9 (ix2 r k) j = ix2 r j := fun j => funext fun a => Fin.ext (by match a with | ⟨0, _⟩ => rfl | ⟨1, _⟩ => rfl)
  have e2 : ∀ j : Fin 256, ridx_main_v9 (ix2 r k) j = ix2 j k := fun j => funext fun a => Fin.ext (by match a with | ⟨0, _⟩ => rfl | ⟨1, _⟩ => rfl)
  have e3 : idx_main_v10 (idx_main_v11 (ix2 r k)) = ix1 k := funext fun a => Fin.ext (by match a with | ⟨0, _⟩ => rfl)
  rw [val_main_v13_apply, val_main_v12_apply, val_main_v9_apply, val_main_v11_apply, val_main_v10_apply, val_main_call1_v0_apply, val_main_call1_cst_apply, e3]
  simp only [e1, e2]
  rfl

/-- The joined array at a column below 64 is the feature encoder. -/
theorem cat_left (x0 : (⟨S50000x512, .f32⟩ : BufTy).Contents (Elt Ideal)) (x1 : (⟨S50000x256, .f32⟩ : BufTy).Contents (Elt Ideal)) (x3 : (⟨S512x64, .f32⟩ : BufTy).Contents (Elt Ideal)) (x4 : (⟨S64, .f32⟩ : BufTy).Contents (Elt Ideal))
    (x5 : (⟨S256x32, .f32⟩ : BufTy).Contents (Elt Ideal)) (x6 : (⟨S32, .f32⟩ : BufTy).Contents (Elt Ideal)) (r : Fin 50000) (k : Fin 64) :
    val_main_v14 (F := Ideal) x0 x1 x3 x4 x5 x6 (ix2 r (⟨k.val, by omega⟩ : Fin 96)) = val_main_v8 (F := Ideal) x0 x3 x4 (ix2 r k) := by
  unfold val_main_v14
  exact concatenate_pair_apply_left (1 : Fin S50000x96.rank) _ _ concatenates_S50000x64_S50000x32_S50000x96_d1 (ix2 r (⟨k.val, by omega⟩ : Fin 96)) rfl (ix2 r k)
    (fun b => by match b with | ⟨0, _⟩ => rfl | ⟨1, _⟩ => rfl)

/-- The joined array at column 64 + k is the image encoder at column k. -/
theorem cat_right (x0 : (⟨S50000x512, .f32⟩ : BufTy).Contents (Elt Ideal)) (x1 : (⟨S50000x256, .f32⟩ : BufTy).Contents (Elt Ideal)) (x3 : (⟨S512x64, .f32⟩ : BufTy).Contents (Elt Ideal)) (x4 : (⟨S64, .f32⟩ : BufTy).Contents (Elt Ideal))
    (x5 : (⟨S256x32, .f32⟩ : BufTy).Contents (Elt Ideal)) (x6 : (⟨S32, .f32⟩ : BufTy).Contents (Elt Ideal)) (r : Fin 50000) (k : Fin 32) :
    val_main_v14 (F := Ideal) x0 x1 x3 x4 x5 x6 (ix2 r (⟨64 + k.val, by omega⟩ : Fin 96)) = val_main_v13 (F := Ideal) x1 x5 x6 (ix2 r k) := by
  unfold val_main_v14
  exact concatenate_pair_apply_right (1 : Fin S50000x96.rank) _ _ concatenates_S50000x64_S50000x32_S50000x96_d1 (ix2 r (⟨64 + k.val, by omega⟩ : Fin 96)) rfl rfl (ix2 r k)
    (fun b hb => by match b with | ⟨0, _⟩ => rfl | ⟨1, _⟩ => exact absurd rfl hb)
    (by show k.val + 64 = 64 + k.val; omega)

/-- THE FIRST-LAYER PRODUCT at (r, q): the clamped feature row times column q of the top 64 weight rows, plus the clamped image
    row times column q of the bottom 32 weight rows. -/
theorem layer1_apply (x0 : (⟨S50000x512, .f32⟩ : BufTy).Contents (Elt Ideal)) (x1 : (⟨S50000x256, .f32⟩ : BufTy).Contents (Elt Ideal)) (x3 : (⟨S512x64, .f32⟩ : BufTy).Contents (Elt Ideal)) (x4 : (⟨S64, .f32⟩ : BufTy).Contents (Elt Ideal))
    (x5 : (⟨S256x32, .f32⟩ : BufTy).Contents (Elt Ideal)) (x6 : (⟨S32, .f32⟩ : BufTy).Contents (Elt Ideal)) (x7 : (⟨S96x96, .f32⟩ : BufTy).Contents (Elt Ideal)) (r : Fin 50000) (q : Fin 96) :
    val_main_v15 (F := Ideal) x0 x1 x3 x4 x5 x6 x7 (ix2 r q)
      = (∑ k : Fin 64, max ((∑ j : Fin 512, x0 (ix2 r j) * x3 (ix2 j k)) + x4 (ix1 k)) (Ideal.ofBits .f32 0x00000000#32) * x7 (ix2 (⟨k.val, by omega⟩ : Fin 96) q))
        + (∑ k : Fin 32, max ((∑ j : Fin 256, x1 (ix2 r j) * x5 (ix2 j k)) + x6 (ix1 k)) (Ideal.ofBits .f32 0x00000000#32) * x7 (ix2 (⟨64 + k.val, by omega⟩ : Fin 96) q)) := by
  have e1 : ∀ k : Fin 96, lidx_main_v15 (ix2 r q) k = ix2 r k := fun k => funext fun a => Fin.ext (by match a with | ⟨0, _⟩ => rfl | ⟨1, _⟩ => rfl)
  have e2 : ∀ k : Fin 96, ridx_main_v15 (ix2 r q) k = ix2 k q := fun k => funext fun a => Fin.ext (by match a with | ⟨0, _⟩ => rfl | ⟨1, _⟩ => rfl)
  rw [val_main_v15_apply]
  simp only [e1, e2]
  rw [sum_split_96]
  refine congrArg₂ (· + ·) (Finset.sum_congr rfl fun k _ => ?_) (Finset.sum_congr rfl fun k _ => ?_)
  · rw [cat_left, feat_apply]
  · rw [cat_right, img_apply]

end Cert.ReferenceIdeal.Hand

end
-- ==== Proof.Region0.lean ====
/-
  Region 0's output array after its ten grid points.

  Point t loads rows 5000·t … 5000·t + 4999 of the features and of the images, the whole of the two encoder weight matrices and
  bias rows and of the two row slices of the first layer's weight matrix, and writes back rows 5000·t … 5000·t + 4999 of its output.
  What it writes at (p, q) of its block is, term by term, the reference's first-layer product at (5000·t + p, q); the ten blocks
  cover the 50000 rows; so the output array ends holding that product, as one function of the argument arrays.
-/
import proofs.«150896_j3822520893972_1_alg».proof.Proof.Gen.KernelIdeal.Frame
import proofs.«150896_j3822520893972_1_alg».proof.Proof.Region0Pay
import proofs.«150896_j3822520893972_1_alg».proof.Proof.Region0Ref

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The printed index maps, decided once over the grid: the three row-blocked windows are at block (t, 0), the six whole-array
    windows at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) ∧ True :=
  (by decide +kernel : ∀ t : Fin grid0.N, _)

/-- A row of a block is a row of the array. -/
theorem row_lt (t : Fin cfg0.N) (p : Fin 5000) : t.val * 5000 + p.val < 50000 := by
  have hN : cfg0.N = 10 := N_0
  have := t.isLt; have := p.isLt; omega

section Blocks
variable {F : FTy → Type} [FloatOps F]
variable (V : (c : Dev nD) → (b : Ref sig .tc) → Buf (Elt F) ((c : Thread nD τ).loc b))

/-- Window 0's block at point t is rows 5000·t … of the feature array. -/
theorem blk0 (c : Dev nD) (t : Fin cfg0.N) (p : Fin 5000) (j : Fin 512) :
    (iblk0 V c 0 t : Vec F S5000x512 .f32) (ix2 p j) = (V c main_arg0 : S50000x512.Idx → Elt F .f32) (ix2 ⟨t.val * 5000 + p.val, row_lt t p⟩ j) := by
  obtain ⟨h0, h1⟩ := (idx_facts0 t).1
  unfold iblk0
  rw [View.read_apply]
  show V c main_arg0 _ = V c main_arg0 _
  refine congrArg _ (funext fun a => Fin.ext ?_)
  match a with
  | ⟨0, _⟩ => show win0_0.index t (0 : Fin 2) * 5000 + 1 * p.val = t.val * 5000 + p.val; rw [h0]; omega
  | ⟨1, _⟩ => show win0_0.index t (1 : Fin 2) * 512 + 1 * j.val = j.val; rw [h1]; omega

/-- Window 1's block at point t is rows 5000·t … of the image array. -/
theorem blk1 (c : Dev nD) (t : Fin cfg0.N) (p : Fin 5000) (j : Fin 256) :
    (iblk0 V c 1 t : Vec F S5000x256 .f32) (ix2 p j) = (V c main_arg1 : S50000x256.Idx → Elt F .f32) (ix2 ⟨t.val * 5000 + p.val, row_lt t p⟩ j) := by
  obtain ⟨h0, h1⟩ := (idx_facts0 t).2.1
  unfold iblk0
  rw [View.read_apply]
  show V c main_arg1 _ = V c main_arg1 _
  refine congrArg _ (funext fun a => Fin.ext ?_)
  match a with
  | ⟨0, _⟩ => show win0_1.index t (0 : Fin 2) * 5000 + 1 * p.val = t.val * 5000 + p.val; rw [h0]; omega
  | ⟨1, _⟩ => show win0_1.index t (1 : Fin 2) * 256 + 1 * j.val = j.val; rw [h1]; omega

/-- Window 2's block is the whole feature weight matrix. -/
theorem blk2 (c : Dev nD) (t : Fin cfg0.N) (p : Fin 512) (j : Fin 64) :
    (iblk0 V c 2 t : Vec F S512x64 .f32) (ix2 p j) = (V c main_arg3 : S512x64.Idx → Elt F .f32) (ix2 p j) := by
  obtain ⟨h0, h1⟩ := (idx_facts0 t).2.2.1
  unfold iblk0
  rw [View.read_apply]
  show V c main_arg3 _ = V c main_arg3 _
  refine congrArg _ (funext fun a => Fin.ext ?_)
  match a with
  | ⟨0, _⟩ => show win0_2.index t (0 : Fin 2) * 512 + 1 * p.val = p.val; rw [h0]; omega
  | ⟨1, _⟩ => show win0_2.index t (1 : Fin 2) * 64 + 1 * j.val = j.val; rw [h1]; omega

/-- Window 3's block is the whole feature bias row. -/
theorem blk3 (c : Dev nD) (t : Fin cfg0.N) (p : Fin 1) (j : Fin 64) :
    (iblk0 V c 3 t : Vec F S1x64 .f32) (ix2 p j) = (V c main_v6 : S1x64.Idx → Elt F .f32) (ix2 p j) := by
  obtain ⟨h0, h1⟩ := (idx_facts0 t).2.2.2.1
  unfold iblk0
  rw [View.read_apply]
  show V c main_v6 _ = V c main_v6 _
  refine congrArg _ (funext fun a => Fin.ext ?_)
  match a with
  | ⟨0, _⟩ => show win0_3.index t (0 : Fin 2) * 1 + 1 * p.val = p.val; rw [h0]; omega
  | ⟨1, _⟩ => show win0_3.index t (1 : Fin 2) * 64 + 1 * j.val = j.val; rw [h1]; omega

/-- Window 4's block is the whole image weight matrix. -/
theorem blk4 (c : Dev nD) (t : Fin cfg0.N) (p : Fin 256) (j : Fin 32) :
    (iblk0 V c 4 t : Vec F S256x32 .f32) (ix2 p j) = (V c main_arg5 : S256x32.Idx → Elt F .f32) (ix2 p j) := by
  obtain ⟨h0, h1⟩ := (idx_facts0 t).2.2.2.2.1
  unfold iblk0
  rw [View.read_apply]
  show V c main_arg5 _ = V c main_arg5 _
  refine congrArg _ (funext fun a => Fin.ext ?_)
  match a with
  | ⟨0, _⟩ => show win0_4.index t (0 : Fin 2) * 256 + 1 * p.val = p.val; rw [h0]; omega
  | ⟨1, _⟩ => show win0_4.index t (1 : Fin 2) * 32 + 1 * j.val = j.val; rw [h1]; omega

/-- Window 5's block is the whole image bias row. -/
theorem blk5 (c : Dev nD) (t : Fin cfg0.N) (p : Fin 1) (j : Fin 32) :
    (iblk0 V c 5 t : Vec F S1x32 .f32) (ix2 p j) = (V c main_v7 : S1x32.Idx → Elt F .f32) (ix2 p j) := by
  obtain ⟨h0, h1⟩ := (idx_facts0 t).2.2.2.2.2.1
  unfold iblk0
  rw [View.read_apply]
  show V c main_v7 _ = V c main_v7 _
  refine congrArg _ (funext fun a => Fin.ext ?_)
  match a with
  | ⟨0, _⟩ => show win0_5.index t (0 : Fin 2) * 1 + 1 * p.val = p.val; rw [h0]; omega
  | ⟨1, _⟩ => show win0_5.index t (1 : Fin 2) * 32 + 1 * j.val = j.val; rw [h1]; omega

/-- Window 6's block is the whole top slice of the first layer's weights. -/
theorem blk6 (c : Dev nD) (t : Fin cfg0.N) (p : Fin 64) (j : Fin 96) :
    (iblk0 V c 6 t : Vec F S64x96 .f32) (ix2 p j) = (V c main_v4 : S64x96.Idx → Elt F .f32) (ix2 p j) := by
  obtain ⟨h0, h1⟩ := (idx_facts0 t).2.2.2.2.2.2.1
  unfold iblk0
  rw [View.read_apply]
  show V c main_v4 _ = V c main_v4 _
  refine congrArg _ (funext fun a => Fin.ext ?_)
  match a with
  | ⟨0, _⟩ => show win0_6.index t (0 : Fin 2) * 64 + 1 * p.val = p.val; rw [h0]; omega
  | ⟨1, _⟩ => show win0_6.index t (1 : Fin 2) * 96 + 1 * j.val = j.val; rw [h1]; omega

/-- Window 7's block is the whole bottom slice of the first layer's weights. -/
theorem blk7 (c : Dev nD) (t : Fin cfg0.N) (p : Fin 32) (j : Fin 96) :
    (iblk0 V c 7 t : Vec F S32x96 .f32) (ix2 p j) = (V c main_v5 : S32x96.Idx → Elt F .f32) (ix2 p j) := by
  obtain ⟨h0, h1⟩ := (idx_facts0 t).2.2.2.2.2.2.2.1
  unfold iblk0
  rw [View.read_apply]
  show V c main_v5 _ = V c main_v5 _
  refine congrArg _ (funext fun a => Fin.ext ?_)
  match a with
  | ⟨0, _⟩ => show win0_7.index t (0 : Fin 2) * 32 + 1 * p.val = p.val; rw [h0]; omega
  | ⟨1, _⟩ => show win0_7.index t (1 : Fin 2) * 96 + 1 * j.val = j.val; rw [h1]; omega

end Blocks

section Entry
variable {F : FTy → Type} [FloatOps F]
variable (m : (ℓ : Loc nD τ sig) → Buf (Elt F) ℓ) (ρ : Dev nD → PrngReg)

/-! What region 0 finds in its input arrays: the host operations before it cut the first layer's weight matrix into its top 64
    and bottom 32 rows and give each bias a leading unit axis; the other inputs are arguments, which they do not touch. -/

theorem entry_arg0 (c : Dev nD) : V1 m ρ c main_arg0 = m ((c : Thread nD τ).loc main_arg0) := by
  show StableHlo.after hostOps0 (W0 m ρ c) (Proc.devRef .tc main_arg0) = _
  simp only [hostOps0]
  after_results
theorem entry_arg1 (c : Dev nD) : V1 m ρ c main_arg1 = m ((c : Thread nD τ).loc main_arg1) := by
  show StableHlo.after hostOps0 (W0 m ρ c) (Proc.devRef .tc main_arg1) = _
  simp only [hostOps0]
  after_results
theorem entry_arg3 (c : Dev nD) : V1 m ρ c main_arg3 = m ((c : Thread nD τ).loc main_arg3) := by
  show StableHlo.after hostOps0 (W0 m ρ c) (Proc.devRef .tc main_arg3) = _
  simp only [hostOps0]
  after_results
theorem entry_arg5 (c : Dev nD) : V1 m ρ c main_arg5 = m ((c : Thread nD τ).loc main_arg5) := by
  show StableHlo.after hostOps0 (W0 m ρ c) (Proc.devRef .tc main_arg5) = _
  simp only [hostOps0]
  after_results
/-- The top slice at (k, q) is the weight matrix at (k, q). -/
theorem entry_top (c : Dev nD) (k : Fin 64) (q : Fin 96) :
    (V1 m ρ c main_v4 : S64x96.Idx → Elt F .f32) (ix2 k q) = (m ((c : Thread nD τ).loc main_arg7) : S96x96.Idx → Elt F .f32) (ix2 ⟨k.val, by omega⟩ q) := by
  show StableHlo.after hostOps0 (W0 m ρ c) (Proc.devRef .tc main_v4) (ix2 k q) = _
  simp only [hostOps0]
  after_results
  exact slice2_axis0_apply 0 _ _ k q ⟨k.val, by omega⟩ (by simp)
/-- The bottom slice at (k, q) is the weight matrix at (64 + k, q). -/
theorem entry_bot (c : Dev nD) (k : Fin 32) (q : Fin 96) :
    (V1 m ρ c main_v5 : S32x96.Idx → Elt F .f32) (ix2 k q) = (m ((c : Thread nD τ).loc main_arg7) : S96x96.Idx → Elt F .f32) (ix2 ⟨64 + k.val, by omega⟩ q) := by
  show StableHlo.after hostOps0 (W0 m ρ c) (Proc.devRef .tc main_v5) (ix2 k q) = _
  simp only [hostOps0]
  after_results
  exact slice2_axis0_apply 64 _ _ k q ⟨64 + k.val, by omega⟩ rfl
/-- The feature bias row at (0, k) is the bias at k. -/
theorem entry_bfeat (c : Dev nD) (k : Fin 64) :
    (V1 m ρ c main_v6 : S1x64.Idx → Elt F .f32) (ix2 (0 : Fin 1) k) = (m ((c : Thread nD τ).loc main_arg4) : S64.Idx → Elt F .f32) (ix1 k) := by
  show StableHlo.after hostOps0 (W0 m ρ c) (Proc.devRef .tc main_v6) (ix2 (0 : Fin 1) k) = _
  simp only [hostOps0]
  after_results
  exact shapeCast_a_1a_apply _ _ (0 : Fin 1) k
/-- The image bias row at (0, k) is the bias at k. -/
theorem entry_bimg (c : Dev nD) (k : Fin 32) :
    (V1 m ρ c main_v7 : S1x32.Idx → Elt F .f32) (ix2 (0 : Fin 1) k) = (m ((c : Thread nD τ).loc main_arg6) : S32.Idx → Elt F .f32) (ix1 k) := by
  show StableHlo.after hostOps0 (W0 m ρ c) (Proc.devRef .tc main_v7) (ix2 (0 : Fin 1) k) = _
  simp only [hostOps0]
  after_results
  exact shapeCast_a_1a_apply _ _ (0 : Fin 1) k

end Entry

section Final
variable (m : (ℓ : Loc nD τ sig) → Buf (Elt Ideal) ℓ) (ρ : Dev nD → PrngReg)

/-- The reference's first-layer product — clamp (features · W_feat + b_feat) and clamp (images · W_img + b_img) joined along the
    columns, times the first layer's weight matrix — of the kernel's argument arrays. -/
abbrev layer1 (c : Dev nD) : Buf (Elt Ideal) ((c : Thread nD τ).loc main_v8) :=
  Cert.ReferenceIdeal.ReadP.val_main_v15 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))

/-- What point t stores at (p, q) of its block is the first-layer product at (5000·t + p, q): both are the clamped feature row
    times column q of the top weight rows plus the clamped image row times column q of the bottom weight rows, of the same reads. -/
theorem store_eq (c : Dev nD) (t : Fin cfg0.N) (p : Fin 5000) (q : Fin 96) :
    k0_pay1 (iblk0 (V1 m ρ) c 0 t) (iblk0 (V1 m ρ) c 2 t) (iblk0 (V1 m ρ) c 3 t) (iblk0 (V1 m ρ) c 1 t) (iblk0 (V1 m ρ) c 4 t) (iblk0 (V1 m ρ) c 5 t) (iblk0 (V1 m ρ) c 6 t) (iblk0 (V1 m ρ) c 7 t) (ix2 p q)
      = (layer1 m c : S50000x96.Idx → EReal) (ix2 ⟨t.val * 5000 + p.val, row_lt t p⟩ q) := by
  refine (pay_apply (iblk0 (V1 m ρ) c 0 t) (iblk0 (V1 m ρ) c 2 t) (iblk0 (V1 m ρ) c 3 t) (iblk0 (V1 m ρ) c 1 t) (iblk0 (V1 m ρ) c 4 t) (iblk0 (V1 m ρ) c 5 t) (iblk0 (V1 m ρ) c 6 t) (iblk0 (V1 m ρ) c 7 t) p q).trans ?_
  refine Eq.trans ?_ (Cert.ReferenceIdeal.Hand.layer1_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) ⟨t.val * 5000 + p.val, row_lt t p⟩ q).symm
  refine congrArg₂ (· + ·) (Finset.sum_congr rfl fun k _ => ?_) (Finset.sum_congr rfl fun k _ => ?_)
  · rw [blk6, entry_top, blk3, entry_bfeat]
    refine congrArg₂ (· * ·) (congrArg₂ max (congrArg₂ (· + ·) (Finset.sum_congr rfl fun j _ => ?_) rfl) rfl) rfl
    rw [blk0, blk2, entry_arg0, entry_arg3]
  · rw [blk7, entry_bot, blk5, entry_bimg]
    refine congrArg₂ (· * ·) (congrArg₂ max (congrArg₂ (· + ·) (Finset.sum_congr rfl fun j _ => ?_) rfl) rfl) rfl
    rw [blk1, blk4, entry_arg1, entry_arg5]

/-- WHAT POINT t WRITES BACK is block t of the first-layer product. -/
theorem flushed_eq (c : Dev nD) (t : Fin cfg0.N) :
    (dat0 (V1 m ρ) c).flushed 8 t = ((cfg0.win 8).blk t).view.read (Elt Ideal) (layer1 m c) := by
  show (cfg0.win 8).cut (grid0.coords t) ((dat0 (V1 m ρ) c).after 8 t) = _
  rw [after0_8]
  unfold out0_8
  rw [View.canon_unit_zero hz]
  simp only [View.ld_unit_zero (S := S5000x512) hz, View.ld_unit_zero (S := S5000x256) hz, View.ld_unit_zero (S := S512x64) hz,
    View.ld_unit_zero (S := S1x64) hz, View.ld_unit_zero (S := S256x32) hz, View.ld_unit_zero (S := S1x32) hz,
    View.ld_unit_zero (S := S64x96) hz, View.ld_unit_zero (S := S32x96) hz]
  obtain ⟨h0, h1⟩ := (idx_facts0 t).2.2.2.2.2.2.2.2.1
  funext y
  have hemb : ((cfg0.win 8).blk t).view.emb y = (ix2 ⟨t.val * 5000 + (y 0).val, row_lt t (y 0)⟩ (y 1) : S50000x96.Idx) := funext fun a => Fin.ext (by
    match a with
    | ⟨0, _⟩ => show win0_8.index t (0 : Fin 2) * 5000 + 1 * (y 0).val = t.val * 5000 + (y 0).val; rw [h0]; omega
    | ⟨1, _⟩ => show win0_8.index t (1 : Fin 2) * 96 + 1 * (y 1).val = (y 1).val; rw [h1]; omega)
  rw [View.read_apply, hemb]
  exact (congrArg (k0_pay1 (iblk0 (V1 m ρ) c 0 t) (iblk0 (V1 m ρ) c 2 t) (iblk0 (V1 m ρ) c 3 t) (iblk0 (V1 m ρ) c 1 t) (iblk0 (V1 m ρ) c 4 t) (iblk0 (V1 m ρ) c 5 t) (iblk0 (V1 m ρ) c 6 t) (iblk0 (V1 m ρ) c 7 t)) (eq_ix2 y)).trans (store_eq m ρ c t (y 0) (y 1))

/-- An index of the array is in point t's block iff each coordinate is in the block's range on its axis. -/
theorem mem_blk8 (t : Fin cfg0.N) (i : S50000x96.Idx) :
    i ∈ ((cfg0.win 8).blk t).view.set ↔ ∀ a : Fin 2, win0_8.index t a * S5000x96.size a ≤ (i a).val ∧ (i a).val < win0_8.index t a * S5000x96.size a + S5000x96.size a := by
  show i ∈ ((View.whole main_v8).slice (win0_8.rect t)).set ↔ _
  rw [View.set_slice_whole, Rect.mem_set_unit]
  exact Iff.rfl

/-- Every row r of the array is in the block of point r / 5000, and every point writes its block back. -/
theorem cover8 (i : S50000x96.Idx) : ∃ t : Fin cfg0.N, (cfg0.win 8).flush t = true ∧ i ∈ ((cfg0.win 8).blk t).view.set := by
  have hN : cfg0.N = 10 := N_0
  have hi0 : (i 0).val < 50000 := (i 0).isLt
  have hi1 : (i 1).val < 96 := (i 1).isLt
  have ht : (i 0).val / 5000 < cfg0.N := by omega
  refine ⟨⟨(i 0).val / 5000, ht⟩, flush0_8 _, ?_⟩
  obtain ⟨h0, h1⟩ := (idx_facts0 ⟨(i 0).val / 5000, ht⟩).2.2.2.2.2.2.2.2.1
  rw [mem_blk8]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win0_8.index ⟨(i 0).val / 5000, ht⟩ (1 : Fin 2) * 96 ≤ (i 1).val ∧ (i 1).val < win0_8.index ⟨(i 0).val / 5000, ht⟩ (1 : Fin 2) * 96 + 96
    rw [h1]; omega

/-- REGION 0'S OUTPUT ARRAY, when the region is left, is the first-layer product of the argument arrays. -/
theorem region0 (c : Dev nD) : W2 m ρ c (Proc.devRef .tc main_v8) = layer1 m c :=
  (W2_arr m ρ c 8).trans ((dat0 (V1 m ρ) c).arrAt_eq_of_cover 8 (layer1 m c) (fun t _ => flushed_eq m ρ c t) cover8)

end Final

end Cert.KernelIdeal.Hand

end
-- ==== Proof.Region1.lean ====
/- What the second kernel call (one matrix product per grid point) leaves in its output array.

   The call runs over a grid of 10 points. At point t it multiplies rows 5000·t … 5000·t + 4999 of a 50000×96 matrix h by
   the whole 96×64 matrix w, accumulating into zero, and writes the 5000×64 result to rows 5000·t … 5000·t + 4999 of the
   50000×64 output. Entry (p, q) of the block product at point t is ∑ k, h (5000·t + p, k) · w (k, q), which is entry
   (5000·t + p, q) of the whole product h · w; the ten row blocks tile the 50000 rows, every point writes its block back,
   so the output array ends holding h · w, stated here as the host's product of the two arrays as the call finds them.

   Written here: the entries of the two products as sums over the one contracted axis (`block_product_apply`,
   `whole_product_apply`), each input block read as rows of its array (`lhs_block_apply`, `rhs_block_apply`), what a point
   writes back as its block of the whole product (`flushed_eq`), the tiling (`mem_blk`, `cover`), the array after the
   last point (`final`), and the statement over the run's buffer contents (`region1`). -/
import proofs.«150896_j3822520893972_1_alg».proof.Proof.Gen.KernelIdeal.Frame
import proofs.«150896_j3822520893972_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand.R1

open Cert.KernelIdeal Cert.KernelIdeal.Gen

/-! ## One entry of a matrix product over a single contracted axis

Both products contract the left operand's axis 1 with the right operand's axis 0 and have no batch axis, so entry (p, q)
of the product is the sum over k of left (p, k) times right (k, q): the contraction index set, of rank one and extent 96,
is re-indexed by its one coordinate. First the operand indices of each product, coordinate by coordinate: at output index
i and contraction index q the left operand is read at (i 0, q 0) and the right one at (q 0, i 1). -/

/-- In the product of a 5000×96 block with the 96×64 matrix, the left operand's row coordinate is the output's row coordinate. -/
theorem block_lhs_0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
/-- Its column coordinate is the contraction index. -/
theorem block_lhs_1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
/-- The right operand's row coordinate is the contraction index. -/
theorem block_rhs_0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
/-- Its column coordinate is the output's column coordinate. -/
theorem block_rhs_1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- In the product of the whole 50000×96 matrix with the 96×64 matrix, the left operand's row coordinate is the output's row coordinate. -/
theorem whole_lhs_0 (i : Cert.ReferenceIdeal.S50000x64.Idx) (q : Cert.ReferenceIdeal.dot_S50000x96_S96x64_S50000x64_1_0_0_1_n_n.contr.Idx) :
    (Cert.ReferenceIdeal.dot_S50000x96_S96x64_S50000x64_1_0_0_1_n_n.lhsIdx i q 0).val = (i 0).val := by
  unfold DotDims.lhsIdx
  rw [dif_neg (show ¬(0 : Fin Cert.ReferenceIdeal.S50000x96.rank) ∈ Cert.ReferenceIdeal.dot_S50000x96_S96x64_S50000x64_1_0_0_1_n_n.lhsBatch by decide), dif_pos (show (0 : Fin Cert.ReferenceIdeal.S50000x96.rank) ∈ Cert.ReferenceIdeal.dot_S50000x96_S96x64_S50000x64_1_0_0_1_n_n.lhsNonContracting by decide)]
  rfl
/-- Its column coordinate is the contraction index. -/
theorem whole_lhs_1 (i : Cert.ReferenceIdeal.S50000x64.Idx) (q : Cert.ReferenceIdeal.dot_S50000x96_S96x64_S50000x64_1_0_0_1_n_n.contr.Idx) :
    (Cert.ReferenceIdeal.dot_S50000x96_S96x64_S50000x64_1_0_0_1_n_n.lhsIdx i q 1).val = (q ⟨0, by decide⟩).val :=
  Cert.ReferenceIdeal.dot_S50000x96_S96x64_S50000x64_1_0_0_1_n_n.lhsIdx_val_of_single rfl i q
/-- The right operand's row coordinate is the contraction index. -/
theorem whole_rhs_0 (i : Cert.ReferenceIdeal.S50000x64.Idx) (q : Cert.ReferenceIdeal.dot_S50000x96_S96x64_S50000x64_1_0_0_1_n_n.contr.Idx) :
    (Cert.ReferenceIdeal.dot_S50000x96_S96x64_S50000x64_1_0_0_1_n_n.rhsIdx i q 0).val = (q ⟨0, by decide⟩).val :=
  Cert.ReferenceIdeal.dot_S50000x96_S96x64_S50000x64_1_0_0_1_n_n.rhsIdx_val_of_single rfl i q
/-- Its column coordinate is the output's column coordinate. -/
theorem whole_rhs_1 (i : Cert.ReferenceIdeal.S50000x64.Idx) (q : Cert.ReferenceIdeal.dot_S50000x96_S96x64_S50000x64_1_0_0_1_n_n.contr.Idx) :
    (Cert.ReferenceIdeal.dot_S50000x96_S96x64_S50000x64_1_0_0_1_n_n.rhsIdx i q 1).val = (i 1).val := by
  unfold DotDims.rhsIdx
  rw [dif_neg (show ¬(1 : Fin Cert.ReferenceIdeal.S96x64.rank) ∈ Cert.ReferenceIdeal.dot_S50000x96_S96x64_S50000x64_1_0_0_1_n_n.rhsBatch by decide), dif_pos (show (1 : Fin Cert.ReferenceIdeal.S96x64.rank) ∈ Cert.ReferenceIdeal.dot_S50000x96_S96x64_S50000x64_1_0_0_1_n_n.rhsNonContracting by decide)]
  rfl

/-- Entry (p, q) of the product of a 5000×96 block x0 with the 96×64 matrix x1, accumulated into zero, is
    ∑ k, x0 (p, k) · x1 (k, q): the zero accumulator adds nothing and the cast of the block to its own shape is the block. -/
theorem block_product_apply (x0 : Vec Ideal S5000x96 .f32) (x1 : Vec Ideal S96x64 .f32) (p : Fin 5000) (q : Fin 64) :
    k1_pay1 (F := Ideal) x0 x1 (ix2 p q) = ∑ k : Fin 96, x0 (ix2 p k) * x1 (ix2 k q) := by
  unfold k1_pay1
  rw [shapeCast_self]
  refine (Ideal.matmul_constant_zero_apply dot_S5000x96_S96x64_S5000x64_1_0_0_1_n_n none x0 x1 (ix2 p q)).trans ?_
  rw [← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx (ix2 p q) ((contrEquiv1 dot_S5000x96_S96x64_S5000x64_1_0_0_1_n_n 96 rfl rfl).symm k) = ix2 p k :=
    funext fun a => Fin.ext (by
      match a with
      | ⟨0, _⟩ => exact block_lhs_0 _ _
      | ⟨1, _⟩ => exact (block_lhs_1 _ _).trans hk)
  have er : dot_S5000x96_S96x64_S5000x64_1_0_0_1_n_n.rhsIdx (ix2 p q) ((contrEquiv1 dot_S5000x96_S96x64_S5000x64_1_0_0_1_n_n 96 rfl rfl).symm k) = ix2 k q :=
    funext fun a => Fin.ext (by
      match a with
      | ⟨0, _⟩ => exact (block_rhs_0 _ _).trans hk
      | ⟨1, _⟩ => exact block_rhs_1 _ _)
  rw [el, er]

/-- Entry (r, q) of the host's product of a 50000×96 matrix h with a 96×64 matrix w is ∑ k, h (r, k) · w (k, q). -/
theorem whole_product_apply (h : FVec Ideal Cert.ReferenceIdeal.S50000x96 .f32) (w : FVec Ideal Cert.ReferenceIdeal.S96x64 .f32)
    (r : Fin 50000) (q : Fin 64) :
    Host.dotGeneral (F := Ideal) Cert.ReferenceIdeal.dot_S50000x96_S96x64_S50000x64_1_0_0_1_n_n none h w (ix2 r q)
      = ∑ k : Fin 96, h (ix2 r k) * w (ix2 k q) := by
  simp only [Host.dotGeneral]
  rw [Ideal.dotGeneral_apply, ← Equiv.sum_comp (contrEquiv1 Cert.ReferenceIdeal.dot_S50000x96_S96x64_S50000x64_1_0_0_1_n_n 96 rfl rfl).symm]
  refine Finset.sum_congr rfl fun k _ => ?_
  have hk := contrEquiv1_symm_val Cert.ReferenceIdeal.dot_S50000x96_S96x64_S50000x64_1_0_0_1_n_n 96 rfl rfl k
  have el : Cert.ReferenceIdeal.dot_S50000x96_S96x64_S50000x64_1_0_0_1_n_n.lhsIdx (ix2 r q) ((contrEquiv1 Cert.ReferenceIdeal.dot_S50000x96_S96x64_S50000x64_1_0_0_1_n_n 96 rfl rfl).symm k) = ix2 r k :=
    funext fun a => Fin.ext (by
      match a with
      | ⟨0, _⟩ => exact whole_lhs_0 _ _
      | ⟨1, _⟩ => exact (whole_lhs_1 _ _).trans hk)
  have er : Cert.ReferenceIdeal.dot_S50000x96_S96x64_S50000x64_1_0_0_1_n_n.rhsIdx (ix2 r q) ((contrEquiv1 Cert.ReferenceIdeal.dot_S50000x96_S96x64_S50000x64_1_0_0_1_n_n 96 rfl rfl).symm k) = ix2 k q :=
    funext fun a => Fin.ext (by
      match a with
      | ⟨0, _⟩ => exact (whole_rhs_0 _ _).trans hk
      | ⟨1, _⟩ => exact whole_rhs_1 _ _)
  rw [el, er]

/-! ## The blocks at a grid point -/

/-- The zero offsets of a whole-buffer load or store, as the constant function. -/
theorem hz : (![0, 0] : Fin 2 → Nat) = fun _ => 0 := funext fun a => by fin_cases a <;> rfl

/-- The three block index maps over the ten grid points: at point t the left operand's block and the output's block are
    block (t, 0) of their arrays, and the right operand's block is block (0, 0), the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Entry
/- The buffer contents at the call's entry: any contents, so that nothing below depends on how they were computed. -/
variable (V : (c : Dev nD) → (b : Ref sig .tc) → Buf (Elt Ideal) ((c : Thread nD τ).loc b))

/-- The 50000×96 left operand as the call finds it. -/
abbrev lhsArr (c : Dev nD) : S50000x96.Idx → EReal := V c main_v51
/-- The 96×64 right operand as the call finds it. -/
abbrev rhsArr (c : Dev nD) : S96x64.Idx → EReal := V c main_arg9

/-- Entry (p, k) of the left operand's block at point t is entry (5000·t + p, k) of the array: a block's coordinate is
    its block index times the block's extent plus the coordinate inside the block. -/
theorem lhs_block_apply (c : Dev nD) (t : Fin cfg1.N) (p : Fin 5000) (k : Fin 96) (r : Fin 50000)
    (hr : r.val = t.val * 5000 + p.val) :
    (iblk1 V c 0 t : Vec Ideal S5000x96 .f32) (ix2 p k) = lhsArr V c (ix2 r k) := by
  obtain ⟨e0, e1, -⟩ := idx_facts t
  unfold iblk1
  rw [View.read_apply]
  show lhsArr V c _ = lhsArr V c _
  refine congrArg (lhsArr V c) (funext fun a => Fin.ext ?_)
  match a with
  | ⟨0, _⟩ => show win1_0.index t 0 * 5000 + 1 * p.val = r.val; rw [e0, hr]; omega
  | ⟨1, _⟩ => show win1_0.index t 1 * 96 + 1 * k.val = k.val; rw [e1]; omega

/-- The right operand's block at every point is the whole matrix. -/
theorem rhs_block_apply (c : Dev nD) (t : Fin cfg1.N) (k : Fin 96) (q : Fin 64) :
    (iblk1 V c 1 t : Vec Ideal S96x64 .f32) (ix2 k q) = rhsArr V c (ix2 k q) := by
  obtain ⟨-, -, e2, e3, -⟩ := idx_facts t
  unfold iblk1
  rw [View.read_apply]
  show rhsArr V c _ = rhsArr V c _
  refine congrArg (rhsArr V c) (funext fun a => Fin.ext ?_)
  match a with
  | ⟨0, _⟩ => show win1_1.index t 0 * 96 + 1 * k.val = k.val; rw [e2]; omega
  | ⟨1, _⟩ => show win1_1.index t 1 * 64 + 1 * q.val = q.val; rw [e3]; omega

/-- What point t writes back is block t of any 50000×64 matrix G whose entry (r, q) is ∑ k, left (r, k) · right (k, q):
    the body stores the product of its two input blocks, whose entry (p, q) is that sum at row 5000·t + p, and block t of G
    at (p, q) is G at (5000·t + p, q). -/
theorem flushed_eq (c : Dev nD) (G : S50000x64.Idx → EReal)
    (hG : ∀ (r : Fin 50000) (q : Fin 64), G (ix2 r q) = ∑ k : Fin 96, lhsArr V c (ix2 r k) * rhsArr V c (ix2 k q))
    (t : Fin cfg1.N) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero hz]
  simp only [View.ld_unit_zero (S := S5000x96) hz, View.ld_unit_zero (S := S96x64) hz]
  funext y
  obtain ⟨p, q, rfl⟩ : ∃ (p : Fin 5000) (q : Fin 64), y = ix2 p q := ⟨y 0, y 1, eq_ix2 y⟩
  have ht : t.val < 10 := lt_of_lt_of_eq t.isLt N_1
  have hp : p.val < 5000 := p.isLt
  obtain ⟨-, -, -, -, e4, e5⟩ := idx_facts t
  have hx : (win1 2).xinj (grid1.coords t) (ix2 p q) = ix2 p q :=
    funext fun a => Fin.ext (by match a with | ⟨0, _⟩ => rfl | ⟨1, _⟩ => rfl)
  have he : ((cfg1.win 2).blk t).view.emb (ix2 p q) = ix2 (⟨t.val * 5000 + p.val, by omega⟩ : Fin 50000) q :=
    funext fun a => Fin.ext (by
      match a with
      | ⟨0, _⟩ => show win1_2.index t 0 * 5000 + 1 * p.val = t.val * 5000 + p.val; rw [e4]; omega
      | ⟨1, _⟩ => show win1_2.index t 1 * 64 + 1 * q.val = q.val; rw [e5]; omega)
  refine (congrArg (k1_pay1 (F := Ideal) (iblk1 V c 0 t) (iblk1 V c 1 t)) hx).trans ?_
  refine (block_product_apply (iblk1 V c 0 t) (iblk1 V c 1 t) p q).trans ?_
  rw [View.read_apply]
  show _ = G (((cfg1.win 2).blk t).view.emb (ix2 p q))
  refine Eq.trans ?_ ((congrArg G he).trans (hG ⟨t.val * 5000 + p.val, by omega⟩ q)).symm
  refine Finset.sum_congr rfl fun k _ => ?_
  rw [lhs_block_apply V c t p k ⟨t.val * 5000 + p.val, by omega⟩ rfl, rhs_block_apply V c t k q]

end Entry

/-! ## The ten row blocks tile the output -/

/-- An index of the output array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Row r of the 50000 lies in the block of point r / 5000, which writes back: 5000·(r / 5000) ≤ r < 5000·(r / 5000) + 5000,
    and every column is in the block's 64. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val ∧ (i 1).val < win1_2.index ⟨(i 0).val / 5000, ht⟩ 1 * 64 + 64
    rw [e5]; omega

section Entry
variable (V : (c : Dev nD) → (b : Ref sig .tc) → Buf (Elt Ideal) ((c : Thread nD τ).loc b))

/-- The output array after the last point is the whole product of the two arrays as the call finds them: every point
    writes back its block of that product and the blocks cover the array. -/
theorem final (c : Dev nD) :
    (dat1 V c).arrAt 2 cfg1.N
      = Host.dotGeneral (F := Ideal) (φ₁ := .f32) (φ₂ := .f32) Cert.ReferenceIdeal.dot_S50000x96_S96x64_S50000x64_1_0_0_1_n_n none (V c main_v51) (V c main_arg9) :=
  (dat1 V c).arrAt_eq_of_cover 2 _
    (fun t _ => flushed_eq V c _ (fun r q => whole_product_apply (lhsArr V c) (rhsArr V c) r q) t) cover

end Entry

end Cert.KernelIdeal.Hand.R1

namespace Cert.KernelIdeal.Hand

open Cert.KernelIdeal Cert.KernelIdeal.Gen

variable (m : (ℓ : Loc nD τ sig) → Buf (Elt Ideal) ℓ) (ρ : Dev nD → PrngReg)

/-- At the second call's exit its output array holds the product of the 50000×96 array and the 96×64 array that the call
    found at its entry: the output is the third of the call's arrays, whose contents at the exit are what the ten points'
    write-backs leave. -/
theorem region1 (c : Dev nD) :
    W7 m ρ c (Proc.devRef .tc main_v52)
      = Host.dotGeneral (F := Ideal) (φ₁ := .f32) (φ₂ := .f32) Cert.ReferenceIdeal.dot_S50000x96_S96x64_S50000x64_1_0_0_1_n_n none
          (W6 m ρ c (Proc.devRef .tc main_v51)) (W6 m ρ c (Proc.devRef .tc main_arg9)) :=
  (W7_arr m ρ c 2).trans (R1.final (V6 m ρ) c)

end Cert.KernelIdeal.Hand

end
-- ==== Proof.HostStages.lean ====
/-
  The two host stretches of the kernel's @main are the two graph aggregations of the reference.

  Each aggregation takes a node-feature array `y`, the edge list `x2` (row 0 the source nodes, row 1 the destination
  nodes, both extended by one self loop per node) and a bias row: it gathers the rows of `y` at the source nodes, scales
  row `e` by the symmetric normalisation `d(src e)^(-1/2) * d(dst e)^(-1/2)` (`d` the in-degree counted with the self
  loops, the factor read as 0 where the degree is 0), adds the scaled rows into the destination nodes' rows, and adds
  the bias; the first aggregation ends in a rectified linear unit. `agg1` and `agg2` name these two functions of
  `(y, x2, bias)`. On the reference side its stages 58 and 101 are `agg1` and `agg2` of the stages that feed them
  (definitional unfolding). On the kernel side the contents of the aggregation's result buffer after the stretch are the
  stretch's operations composed, read over the contents the stretch starts from: the same composition, the two edge
  rows having been sliced off the edge list by the first stretch of @main, which neither grid region overwrites.
-/
import proofs.«150896_j3822520893972_1_alg».proof.Proof.Gen.KernelIdeal.Frame
import proofs.«150896_j3822520893972_1_alg».proof.Proof.RefReadP

set_option maxRecDepth 16384

noncomputable section

namespace Cert.Bridge

open Idealize.ShloMosaic Idealize.ShloMosaic.TcCoe Idealize.SL.Sem

variable {F : FTy → Type} [FloatOps F]

/-! ## The reference side -/

section Reference

open Cert.ReferenceIdeal Cert.ReferenceIdeal.Gen Cert.ReferenceIdeal.ReadP

/-- The first aggregation followed by the rectified linear unit, as a function of the node features `y`, the edge
    list `x2` and the bias row `x8`. -/
def agg1 (y : (⟨S50000x96, .f32⟩ : BufTy).Contents (Elt F)) (x2 : (⟨S2x800000, .i32⟩ : BufTy).Contents (Elt F)) (x8 : (⟨S96, .f32⟩ : BufTy).Contents (Elt F)) :
    (⟨S50000x96, .f32⟩ : BufTy).Contents (Elt F) :=
  maximumf (addf (Host.scatterAdd scatter_S50000x96_S850000x1_S850000x96_1_0_0_1 (val_main_v52 (F := F)) (val_main_v53 (F := F) x2)
    (mulf (Host.gather gather_S50000x96_S850000x1_S850000x96_1_0_n_n_0_1_196 y (val_main_v47 (F := F) x2)) (val_main_v50 (F := F) x2)))
    (val_main_v56 (F := F) x8)) (val_main_call3_v0 (F := F))

/-- The second aggregation, as a function of the node features `z`, the edge list `x2` and the bias row `x10`. -/
def agg2 (z : (⟨S50000x64, .f32⟩ : BufTy).Contents (Elt F)) (x2 : (⟨S2x800000, .i32⟩ : BufTy).Contents (Elt F)) (x10 : (⟨S64, .f32⟩ : BufTy).Contents (Elt F)) :
    (⟨S50000x64, .f32⟩ : BufTy).Contents (Elt F) :=
  addf (Host.scatterAdd scatter_S50000x64_S850000x1_S850000x64_1_0_0_1 (val_main_v96 (F := F)) (val_main_v97 (F := F) x2)
    (mulf (Host.gather gather_S50000x64_S850000x1_S850000x64_1_0_n_n_0_1_164 z (val_main_v91 (F := F) x2)) (val_main_v94 (F := F) x2)))
    (val_main_v100 (F := F) x10)

/-- The reference's stage 58 is the first aggregation of its stage 15. -/
theorem ref_stage1 (x0 : (⟨S50000x512, .f32⟩ : BufTy).Contents (Elt F)) (x1 : (⟨S50000x256, .f32⟩ : BufTy).Contents (Elt F)) (x2 : (⟨S2x800000, .i32⟩ : BufTy).Contents (Elt F)) (x3 : (⟨S512x64, .f32⟩ : BufTy).Contents (Elt F)) (x4 : (⟨S64, .f32⟩ : BufTy).Contents (Elt F)) (x5 : (⟨S256x32, .f32⟩ : BufTy).Contents (Elt F)) (x6 : (⟨S32, .f32⟩ : BufTy).Contents (Elt F)) (x7 : (⟨S96x96, .f32⟩ : BufTy).Contents (Elt F)) (x8 : (⟨S96, .f32⟩ : BufTy).Contents (Elt F)) :
    val_main_v58 (F := F) x0 x1 x2 x3 x4 x5 x6 x7 x8 = agg1 (val_main_v15 (F := F) x0 x1 x3 x4 x5 x6 x7) x2 x8 := by
  unfold val_main_v58 val_main_v57 val_main_v54 val_main_v51 val_main_v48 agg1
  rfl

/-- The reference's result, stage 101, is the second aggregation of its stage 59. -/
theorem ref_stage2 (x0 : (⟨S50000x512, .f32⟩ : BufTy).Contents (Elt F)) (x1 : (⟨S50000x256, .f32⟩ : BufTy).Contents (Elt F)) (x2 : (⟨S2x800000, .i32⟩ : BufTy).Contents (Elt F)) (x3 : (⟨S512x64, .f32⟩ : BufTy).Contents (Elt F)) (x4 : (⟨S64, .f32⟩ : BufTy).Contents (Elt F)) (x5 : (⟨S256x32, .f32⟩ : BufTy).Contents (Elt F)) (x6 : (⟨S32, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) (x10 : (⟨S64, .f32⟩ : BufTy).Contents (Elt F)) :
    val_main_v101 (F := F) x0 x1 x2 x3 x4 x5 x6 x7 x8 x9 x10 = agg2 (val_main_v59 (F := F) x0 x1 x2 x3 x4 x5 x6 x7 x8 x9) x2 x10 := by
  unfold val_main_v101 val_main_v98 val_main_v95 val_main_v92 agg2
  rfl

end Reference

/-! ## The kernel side -/

section Kernel

open Cert.KernelIdeal Cert.KernelIdeal.Gen

variable (m : (ℓ : Loc nD τ sig) → Buf (Elt F) ℓ) (ρ : Dev nD → PrngReg)

/-! ### What the aggregations read beside the node features: the two edge rows and the bias rows -/

/-- Row 0 of the edge list (the source nodes), sliced off by the first host stretch: region 0 does not write it. -/
theorem W2_main_v1 (c : Dev nD) :
    W2 m ρ c (Proc.devRef .tc main_v1) = Cert.ReferenceIdeal.ReadP.val_main_v1 (F := F) (m ((c.tc : Thread nD τ).loc main_arg2)) := by
  rw [W2_of_ne m ρ c main_v1 (by decide)]
  show StableHlo.after hostOps0 (W0 m ρ c) (Proc.devRef .tc main_v1) = _
  simp only [hostOps0]
  after_results
  rfl

/-- Row 1 of the edge list (the destination nodes), likewise. -/
theorem W2_main_v3 (c : Dev nD) :
    W2 m ρ c (Proc.devRef .tc main_v3) = Cert.ReferenceIdeal.ReadP.val_main_v3 (F := F) (m ((c.tc : Thread nD τ).loc main_arg2)) := by
  rw [W2_of_ne m ρ c main_v3 (by decide)]
  show StableHlo.after hostOps0 (W0 m ρ c) (Proc.devRef .tc main_v3) = _
  simp only [hostOps0]
  after_results
  rfl

/-- The first bias row is an argument that nothing has written when region 0 has run. -/
theorem W2_main_arg8 (c : Dev nD) :
    W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  simp only [hostOps0]
  after_results

/-- The second weight matrix, likewise. -/
theorem W2_main_arg9 (c : Dev nD) :
    W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  simp only [hostOps0]
  after_results

/-- The second bias row, likewise. -/
theorem W2_main_arg10 (c : Dev nD) :
    W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  simp only [hostOps0]
  after_results

/-! ### The first aggregation -/

/-- The buffer region 1 reads its node features from holds, when region 1 is entered, the first aggregation of region
    0's output array: the stretch's operations composed are, operation by operation, the reference's stages composed. -/
theorem kernel_stage1 (c : Dev nD) :
    W6 m ρ c (Proc.devRef .tc main_v51)
      = agg1 (F := F) (W2 m ρ c (Proc.devRef .tc main_v8)) (m ((c.tc : Thread nD τ).loc main_arg2)) (m ((c.tc : Thread nD τ).loc main_arg8)) := by
  have h1 := W2_main_v1 m ρ c
  have h3 := W2_main_v3 m ρ c
  have h8 := W2_main_arg8 m ρ c
  show StableHlo.after hostOps1_3 (StableHlo.after hostOps1_2 (StableHlo.after hostOps1_1 (StableHlo.after hostOps1 (W2 m ρ c))))
      (Proc.devRef .tc main_v51) = _
  generalize W2 m ρ c = V at h1 h3 h8 ⊢
  generalize m ((c.tc : Thread nD τ).loc main_arg2) = x2 at h1 h3 ⊢
  generalize m ((c.tc : Thread nD τ).loc main_arg8) = x8 at h8 ⊢
  simp only [hostOps1, hostOps1_1, hostOps1_2, hostOps1_3]
  after_results_simp
  -- what is left unread are the operands of the two concatenations: an edge row and the node numbering 0 … 49999
  repeat (first
    | rw [StableHlo.nullary_result]
    | (rw [StableHlo.binary_result_ne]; rotate_left; decide)
    | (rw [StableHlo.nullary_result_ne]; rotate_left; decide))
  rw [h1, h3, h8]
  generalize V (Proc.devRef .tc main_v8) = y
  clear h1 h3 h8 V
  rfl

/-! ### The first aggregation's stretch writes neither the edge rows nor the later arguments -/

/-- The first aggregation's stretch does not write row 0 of the edge list. -/
theorem W6_main_v1 (c : Dev nD) : W6 m ρ c (Proc.devRef .tc main_v1) = W2 m ρ c (Proc.devRef .tc main_v1) := by
  show StableHlo.after hostOps1_3 (StableHlo.after hostOps1_2 (StableHlo.after hostOps1_1 (StableHlo.after hostOps1 (W2 m ρ c))))
      (Proc.devRef .tc main_v1) = _
  generalize W2 m ρ c = V
  simp only [hostOps1, hostOps1_1, hostOps1_2, hostOps1_3]
  after_results_simp

/-- Nor row 1 of the edge list. -/
theorem W6_main_v3 (c : Dev nD) : W6 m ρ c (Proc.devRef .tc main_v3) = W2 m ρ c (Proc.devRef .tc main_v3) := by
  show StableHlo.after hostOps1_3 (StableHlo.after hostOps1_2 (StableHlo.after hostOps1_1 (StableHlo.after hostOps1 (W2 m ρ c))))
      (Proc.devRef .tc main_v3) = _
  generalize W2 m ρ c = V
  simp only [hostOps1, hostOps1_1, hostOps1_2, hostOps1_3]
  after_results_simp

/-- Nor the second weight matrix. -/
theorem W6_main_arg9 (c : Dev nD) : W6 m ρ c (Proc.devRef .tc main_arg9) = W2 m ρ c (Proc.devRef .tc main_arg9) := by
  show StableHlo.after hostOps1_3 (StableHlo.after hostOps1_2 (StableHlo.after hostOps1_1 (StableHlo.after hostOps1 (W2 m ρ c))))
      (Proc.devRef .tc main_arg9) = _
  generalize W2 m ρ c = V
  simp only [hostOps1, hostOps1_1, hostOps1_2, hostOps1_3]
  after_results_simp

/-- Nor the second bias row. -/
theorem W6_main_arg10 (c : Dev nD) : W6 m ρ c (Proc.devRef .tc main_arg10) = W2 m ρ c (Proc.devRef .tc main_arg10) := by
  show StableHlo.after hostOps1_3 (StableHlo.after hostOps1_2 (StableHlo.after hostOps1_1 (StableHlo.after hostOps1 (W2 m ρ c))))
      (Proc.devRef .tc main_arg10) = _
  generalize W2 m ρ c = V
  simp only [hostOps1, hostOps1_1, hostOps1_2, hostOps1_3]
  after_results_simp

/-- The second weight matrix is, when region 1 is entered, as launched. -/
theorem kernel_stage1_w (c : Dev nD) : W6 m ρ c (Proc.devRef .tc main_arg9) = m ((c.tc : Thread nD τ).loc main_arg9) :=
  (W6_main_arg9 m ρ c).trans (W2_main_arg9 m ρ c)

/-! ### The second aggregation -/

/-- The result buffer holds, at the end, the second aggregation of region 1's output array. -/
theorem kernel_stage2 (c : Dev nD) :
    W10 m ρ c (Proc.devRef .tc main_v94)
      = agg2 (F := F) (W7 m ρ c (Proc.devRef .tc main_v52)) (m ((c.tc : Thread nD τ).loc main_arg2)) (m ((c.tc : Thread nD τ).loc main_arg10)) := by
  have h1 : W7 m ρ c (Proc.devRef .tc main_v1) = Cert.ReferenceIdeal.ReadP.val_main_v1 (F := F) (m ((c.tc : Thread nD τ).loc main_arg2)) :=
    (W7_of_ne m ρ c main_v1 (by decide)).trans ((W6_main_v1 m ρ c).trans (W2_main_v1 m ρ c))
  have h3 : W7 m ρ c (Proc.devRef .tc main_v3) = Cert.ReferenceIdeal.ReadP.val_main_v3 (F := F) (m ((c.tc : Thread nD τ).loc main_arg2)) :=
    (W7_of_ne m ρ c main_v3 (by decide)).trans ((W6_main_v3 m ρ c).trans (W2_main_v3 m ρ c))
  have h10 : W7 m ρ c (Proc.devRef .tc main_arg10) = m ((c.tc : Thread nD τ).loc main_arg10) :=
    (W7_of_ne m ρ c main_arg10 (by decide)).trans ((W6_main_arg10 m ρ c).trans (W2_main_arg10 m ρ c))
  show StableHlo.after hostOps2_2 (StableHlo.after hostOps2_1 (StableHlo.after hostOps2 (W7 m ρ c)))
      (Proc.devRef .tc main_v94) = _
  generalize W7 m ρ c = V at h1 h3 h10 ⊢
  generalize m ((c.tc : Thread nD τ).loc main_arg2) = x2 at h1 h3 ⊢
  generalize m ((c.tc : Thread nD τ).loc main_arg10) = x10 at h10 ⊢
  simp only [hostOps2, hostOps2_1, hostOps2_2]
  after_results_simp
  -- what is left unread are the operands of the two concatenations: an edge row and the node numbering 0 … 49999
  repeat (first
    | rw [StableHlo.nullary_result]
    | (rw [StableHlo.binary_result_ne]; rotate_left; decide)
    | (rw [StableHlo.nullary_result_ne]; rotate_left; decide))
  rw [h1, h3, h10]
  generalize V (Proc.devRef .tc main_v52) = z
  clear h1 h3 h10 V
  rfl

end Kernel

end Cert.Bridge

end
-- ==== Proof.Value.lean ====
/-
  The kernel's result as the reference's function of the argument arrays.

  The kernel's program is: host slices, region 0, the first graph aggregation and a clamp at zero, region 1, the second graph
  aggregation. The contents of the result buffer at the last boundary are read back stage by stage — each aggregation is the same
  function of its input array in both programs, region 0's array is the reference's first-layer product, region 1's array is the
  reference's second-layer product of region 1's entry contents — and the reference's result composes the same four stages.
-/
import proofs.«150896_j3822520893972_1_alg».proof.Proof.RefReadP
import proofs.«150896_j3822520893972_1_alg».proof.Proof.KernelRun
import proofs.«150896_j3822520893972_1_alg».proof.Proof.Region0
import proofs.«150896_j3822520893972_1_alg».proof.Proof.Region1
import proofs.«150896_j3822520893972_1_alg».proof.Proof.HostStages

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The reference's result — two graph convolutions over the encoders' joined output — as a function of the kernel's eleven
    argument arrays. -/
abbrev result (c : Dev nD) : Buf (Elt Ideal) ((c.tc : Thread nD τ).loc main_v94) :=
  Cert.ReferenceIdeal.ReadP.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- THE KERNEL'S RESULT: the contents of the result buffer at the last boundary are the reference's function of the argument
    arrays. Stage by stage: the second aggregation of region 1's array; region 1's array is the product of the clamped first
    aggregation with the second layer's weights; the first aggregation of region 0's array; region 0's array is the first-layer
    product; and the reference composes the same four stages. -/
theorem kernel_value (c : Dev nD) : W10 m ρ c (Proc.devRef .tc main_v94) = result m c := by
  rw [Cert.Bridge.kernel_stage2, region1, Cert.Bridge.kernel_stage1, Cert.Bridge.kernel_stage1_w, region0]
  unfold result
  rw [Cert.Bridge.ref_stage2]
  unfold Cert.ReferenceIdeal.ReadP.val_main_v59
  rw [Cert.Bridge.ref_stage1]

end Cert.KernelIdeal.Hand

end
-- ==== Proof.lean ====
/-
  The certificate of the two-layer graph convolution kernel against its jnp reference, at the ideal instance.

  The kernel fuses the two clamped linear encoders and the first layer's weight product into one grid region, computing
  clamp (features · W_feat + b_feat) · W_g1[:64] + clamp (images · W_img + b_img) · W_g1[64:], where the reference joins the two
  encoders' outputs along the columns and multiplies by W_g1: at every index the reference's sum over the 96 joined columns is
  the kernel's sum over the first 64 plus its sum over the last 32 (addition of extended reals is commutative and associative;
  no finiteness is needed). The second layer's product is one grid region against one host matrix product, equal sum by sum.
  The graph aggregations (self loops, symmetric degree normalisation, gather, scale, scatter-add, bias) are host operations in
  both programs, the same functions of the same arrays. The three frames are the generated ones (the reference's is its run with
  the result dropped); the idealization rewrote nothing.
-/
import proofs.«150896_j3822520893972_1_alg».proof.Defs
import proofs.«150896_j3822520893972_1_alg».proof.Proof.Gen.Kernel
import proofs.«150896_j3822520893972_1_alg».proof.Proof.Gen.Kernel.Skeleton
import proofs.«150896_j3822520893972_1_alg».proof.Proof.Gen.Kernel.Launch
import proofs.«150896_j3822520893972_1_alg».proof.Proof.Gen.Kernel.Points
import proofs.«150896_j3822520893972_1_alg».proof.Proof.Gen.Kernel.Frame
import proofs.«150896_j3822520893972_1_alg».proof.Proof.Gen.KernelIdeal
import proofs.«150896_j3822520893972_1_alg».proof.Proof.Gen.KernelIdeal.Skeleton
import proofs.«150896_j3822520893972_1_alg».proof.Proof.Gen.KernelIdeal.Launch
import proofs.«150896_j3822520893972_1_alg».proof.Proof.Gen.KernelIdeal.Points
import proofs.«150896_j3822520893972_1_alg».proof.Proof.Gen.KernelIdeal.Frame
import proofs.«150896_j3822520893972_1_alg».proof.Proof.Gen.ReferenceIdeal
import proofs.«150896_j3822520893972_1_alg».proof.Proof.Gen.Pre_finite_inputs
import proofs.«150896_j3822520893972_1_alg».proof.Proof.RefReadP
import proofs.«150896_j3822520893972_1_alg».proof.Proof.KernelRun
import proofs.«150896_j3822520893972_1_alg».proof.Proof.Value
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance the kernel's result buffer ends at the reference's function of its argument arrays, and the reference's
    at the same function of its own, which agree. -/
theorem algebraic : Cert.algebraic_KernelIdeal_ReferenceIdeal := by
  intro m ρ m' ρ' _ hagree
  refine ⟨fun c => Cert.KernelIdeal.Hand.result m c,
    (θ_run Cert.KernelIdeal.defs _ _).mono (fun _ h c => ⟨(h c).1.trans (Cert.KernelIdeal.Hand.kernel_value m ρ c), (h c).2⟩)
      (Cert.KernelIdeal.Hand.run_value (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v101_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
